-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S8000000 : Shape := ⟨1, ![8000000]⟩
abbrev S2000001 : Shape := ⟨1, ![2000001]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S4000000 .f32) (main_arg1 : FVec F S8000000 .f32) (main_arg2 : FVec F S8000000 .f32) (main_arg3 : IVec S8000000 32) (main_arg4 : IVec S8000000 32) (main_arg5 : IVec S2000001 32) : IVec S_ 1 :=
  let main_v0 : FVec F S4000000 .f32 := Host.absf main_arg0
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S8000000 .f32 := Host.absf main_arg1
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S8000000 .f32 := Host.absf main_arg2
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  main_v13
-- ==== Kernel.lean ====
abbrev S4000000 : Shape := ⟨1, ![4000000]⟩
abbrev S8000000 : Shape := ⟨1, ![8000000]⟩
abbrev S2000001 : Shape := ⟨1, ![2000001]⟩
abbrev S_ : Shape := ⟨0, ![]⟩
abbrev S8000000x1 : Shape := ⟨2, ![8000000, 1]⟩
abbrev S3584 : Shape := ⟨1, ![3584]⟩
abbrev S8003584 : Shape := ⟨1, ![8003584]⟩
abbrev S8192 : Shape := ⟨1, ![8192]⟩
abbrev S16000000 : Shape := ⟨1, ![16000000]⟩

abbrev nBuf : Space → Nat
  | .hbm => 44
  | .vmem => 12
  | .smem => 0
  | _ => 0

abbrev bufTy : (tb : Table) → Fin (tcTables nBuf tb) → BufTy
  | .hbm, ⟨0, _⟩ => ⟨S4000000, .f32⟩
  | .hbm, ⟨1, _⟩ => ⟨S8000000, .f32⟩
  | .hbm, ⟨2, _⟩ => ⟨S8000000, .f32⟩
  | .hbm, ⟨3, _⟩ => ⟨S8000000, .i32⟩
  | .hbm, ⟨4, _⟩ => ⟨S8000000, .i32⟩
  | .hbm, ⟨5, _⟩ => ⟨S2000001, .i32⟩
  | .hbm, ⟨6, _⟩ => ⟨S_, .i32⟩
  | .hbm, ⟨7, _⟩ => ⟨S8000000, .i32⟩
  | .hbm, ⟨8, _⟩ => ⟨S8000000, .i1⟩
  | .hbm, ⟨9, _⟩ => ⟨S_, .i32⟩
  | .hbm, ⟨10, _⟩ => ⟨S8000000, .i32⟩
  | .hbm, ⟨11, _⟩ => ⟨S8000000, .i32⟩
  | .hbm, ⟨12, _⟩ => ⟨S8000000, .i32⟩
  | .hbm, ⟨13, _⟩ => ⟨S8000000x1, .i32⟩
  | .hbm, ⟨14, _⟩ => ⟨S8000000, .f32⟩
  | .hbm, ⟨15, _⟩ => ⟨S_, .i32⟩
  | .hbm, ⟨16, _⟩ => ⟨S8000000, .i32⟩
  | .hbm, ⟨17, _⟩ => ⟨S8000000, .i32⟩
  | .hbm, ⟨18, _⟩ => ⟨S_, .i32⟩
  | .hbm, ⟨19, _⟩ => ⟨S8000000, .i32⟩
  | .hbm, ⟨20, _⟩ => ⟨S8000000, .i1⟩
  | .hbm, ⟨21, _⟩ => ⟨S_, .i32⟩
  | .hbm, ⟨22, _⟩ => ⟨S8000000, .i32⟩
  | .hbm, ⟨23, _⟩ => ⟨S8000000, .i32⟩
  | .hbm, ⟨24, _⟩ => ⟨S8000000, .i32⟩
  | .hbm, ⟨25, _⟩ => ⟨S8000000x1, .i32⟩
  | .hbm, ⟨26, _⟩ => ⟨S8000000, .f32⟩
  | .hbm, ⟨27, _⟩ => ⟨S_, .f32⟩
  | .hbm, ⟨28, _⟩ => ⟨S3584, .f32⟩
  | .hbm, ⟨29, _⟩ => ⟨S8003584, .f32⟩
  | .hbm, ⟨30, _⟩ => ⟨S_, .f32⟩
  | .hbm, ⟨31, _⟩ => ⟨S3584, .f32⟩
  | .hbm, ⟨32, _⟩ => ⟨S8003584, .f32⟩
  | .hbm, ⟨33, _⟩ => ⟨S_, .f32⟩
  | .hbm, ⟨34, _⟩ => ⟨S3584, .f32⟩
  | .hbm, ⟨35, _⟩ => ⟨S8003584, .f32⟩
  | .hbm, ⟨36, _⟩ => ⟨S_, .f32⟩
  | .hbm, ⟨37, _⟩ => ⟨S3584, .f32⟩
  | .hbm, ⟨38, _⟩ => ⟨S8003584, .f32⟩
  | .hbm, ⟨39, _⟩ => ⟨S8003584, .f32⟩
  | .hbm, ⟨40, _⟩ => ⟨S8003584, .f32⟩
  | .hbm, ⟨41, _⟩ => ⟨S8000000, .f32⟩
  | .hbm, ⟨42, _⟩ => ⟨S8000000, .f32⟩
  | .hbm, ⟨43, _⟩ => ⟨S16000000, .f32⟩
  | .local _ .vmem, ⟨0, _⟩ => ⟨S8192, .f32⟩
  | .local _ .vmem, ⟨1, _⟩ => ⟨S8192, .f32⟩
  | .local _ .vmem, ⟨2, _⟩ => ⟨S8192, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S8192, .f32⟩
  | .local _ .vmem, ⟨9, _⟩ => ⟨S8192, .f32⟩
  | .local _ .vmem, ⟨10, _⟩ => ⟨S8192, .f32⟩
  | .local _ .vmem, ⟨11, _⟩ => ⟨S8192, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![977], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S3584 : S_.BroadcastsInDim S3584 (![] : Fin 0 → Fin S3584.rank)
  concatenates_S8000000_S3584_S8003584_d0 : Shape.Concatenates [S8000000, S3584] S8003584 0
  inb_S8192_S8192_0 : ∀ a, (![0] : Fin 1 → Nat) a + S8192.size a ≤ S8192.size a
  h_S8192 : 0 < S8192.numel
  shapeCasts_S8192_S8192 : S8192.ShapeCasts S8192
  slices_S8003584_S8000000_0 : S8003584.Slices ![0] S8000000
  concatenates_S8000000_S8000000_S16000000_d0 : Shape.Concatenates [S8000000, S8000000] S16000000 0
  gather_S4000000_S8000000x1_S8000000_n_0_n_n_0_1_1_wf : GatherDims.WF S4000000 S8000000x1 S8000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S8003584.size a
  hwx0_0 : ∀ i : grid0.Coords, EltTy.bits .f32 = 32 ∨ (Rect.block (s := S8003584) S8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8003584.size a
  hwx0_1 : ∀ i : grid0.Coords, EltTy.bits .f32 = 32 ∨ (Rect.block (s := S8003584) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8003584.size a
  hwx0_2 : ∀ i : grid0.Coords, EltTy.bits .f32 = 32 ∨ (Rect.block (s := S8003584) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8003584.size a
  hwx0_3 : ∀ i : grid0.Coords, EltTy.bits .f32 = 32 ∨ (Rect.block (s := S8003584) S8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S8003584.size a
  hwx0_4 : ∀ i : grid0.Coords, EltTy.bits .f32 = 32 ∨ (Rect.block (s := S8003584) S8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S8003584.size a
  hwx0_5 : ∀ i : grid0.Coords, EltTy.bits .f32 = 32 ∨ (Rect.block (s := S8003584) S8192.size (cc0_transform_5 i) (hinb0_5 i)).WholeWords (EltTy.packing .f32)

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf

abbrev win0_0 : Pipeline.Window sig grid0 :=
  Pipeline.Window.ofSpec (Memref.whole main_v17) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24_0) S8192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_1) S8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4000000 : Shape := ⟨1, ![4000000]⟩
abbrev S8000000 : Shape := ⟨1, ![8000000]⟩
abbrev S2000001 : Shape := ⟨1, ![2000001]⟩
abbrev S_ : Shape := ⟨0, ![]⟩
abbrev S8000000x1 : Shape := ⟨2, ![8000000, 1]⟩
abbrev S16000000 : Shape := ⟨1, ![16000000]⟩

abbrev nBuf : Space → Nat
  | .hbm => 30
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S8000000, .f32⟩
  | .hbm, ⟨2, _⟩ => ⟨S8000000, .f32⟩
  | .hbm, ⟨3, _⟩ => ⟨S8000000, .i32⟩
  | .hbm, ⟨4, _⟩ => ⟨S8000000, .i32⟩
  | .hbm, ⟨5, _⟩ => ⟨S2000001, .i32⟩
  | .hbm, ⟨6, _⟩ => ⟨S_, .i32⟩
  | .hbm, ⟨7, _⟩ => ⟨S8000000, .i32⟩
  | .hbm, ⟨8, _⟩ => ⟨S8000000, .i1⟩
  | .hbm, ⟨9, _⟩ => ⟨S_, .i32⟩
  | .hbm, ⟨10, _⟩ => ⟨S8000000, .i32⟩
  | .hbm, ⟨11, _⟩ => ⟨S8000000, .i32⟩
  | .hbm, ⟨12, _⟩ => ⟨S8000000, .i32⟩
  | .hbm, ⟨13, _⟩ => ⟨S8000000x1, .i32⟩
  | .hbm, ⟨14, _⟩ => ⟨S8000000, .f32⟩
  | .hbm, ⟨15, _⟩ => ⟨S8000000, .f32⟩
  | .hbm, ⟨16, _⟩ => ⟨S_, .i32⟩
  | .hbm, ⟨17, _⟩ => ⟨S8000000, .i32⟩
  | .hbm, ⟨18, _⟩ => ⟨S8000000, .i32⟩
  | .hbm, ⟨19, _⟩ => ⟨S_, .i32⟩
  | .hbm, ⟨20, _⟩ => ⟨S8000000, .i32⟩
  | .hbm, ⟨21, _⟩ => ⟨S8000000, .i1⟩
  | .hbm, ⟨22, _⟩ => ⟨S_, .i32⟩
  | .hbm, ⟨23, _⟩ => ⟨S8000000, .i32⟩
  | .hbm, ⟨24, _⟩ => ⟨S8000000, .i32⟩
  | .hbm, ⟨25, _⟩ => ⟨S8000000, .i32⟩
  | .hbm, ⟨26, _⟩ => ⟨S8000000x1, .i32⟩
  | .hbm, ⟨27, _⟩ => ⟨S8000000, .f32⟩
  | .hbm, ⟨28, _⟩ => ⟨S8000000, .f32⟩
  | .hbm, ⟨29, _⟩ => ⟨S16000000, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000_S8000000_S16000000_d0 : Shape.Concatenates [S8000000, S8000000] S16000000 0
  gather_S4000000_S8000000x1_S8000000_n_0_n_n_0_1_1_wf : GatherDims.WF S4000000 S8000000x1 S8000000 [] [0] [] [0] [] 1 ![1]

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf

class Facts : Prop extends Facts₀ where

variable [Facts]
-- ==== Proof.KernelBlocks.lean ====
/-
  The blocks of the add kernel, joined into whole arrays.  The grid has 977 points; at point t every one of the
  six windows sits on block t of its array (entries 8192·t … 8192·t + 8191).  The body stores, into the first
  output's block, the elementwise sum of the first and third inputs' blocks, and into the second output's block
  the sum of the second and fourth inputs' blocks.  Since 977 · 8192 = 8003584, every entry k of an output array
  lies in exactly the block of point k / 8192, so after the run each output array is, entry by entry, the sum
  of the two input arrays it was computed from.  This holds at every reading of the float operations.
-/
import proofs.«153503_j70214125355241_2_alg».proof.Proof.Gen.KernelIdeal.Frame
import Idealize.ShloMosaic.Lib.Pipeline.Value

set_option maxRecDepth 16384

noncomputable section

namespace Cert.KernelIdeal.Blocks

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ)

/-- The entry-by-entry sum of two padded arrays. -/
abbrev sumArr (a b : S8003584.Idx → Elt F .f32) : S8003584.Idx → Elt F .f32 := fun i => FloatOps.addf (a i) (b i)

theorem offset_zero : (![0] : Fin 1 → Nat) = fun _ => 0 := funext fun a => by fin_cases a; rfl

/-- What the body stores in the first output's block: the sum of the two loaded blocks (the casts between equal
    shapes are the identity). -/
theorem stored_x (x0 x2 : Vec F S8192 .f32) : k0_pay1 x0 x2 = addf x0 x2 := by
  unfold k0_pay1; simp only [shapeCast_self]
/-- The same for the second output's block. -/
theorem stored_y (x1 x3 : Vec F S8192 .f32) : k0_pay2 x1 x3 = addf x1 x3 := by
  unfold k0_pay2; simp only [shapeCast_self]

/-- At grid point t each window's block index is t itself. -/
theorem block_index : ∀ t : Fin cfg0.N, win0_0.index t (0 : Fin 1) = t.val ∧ win0_1.index t (0 : Fin 1) = t.val
    ∧ win0_2.index t (0 : Fin 1) = t.val ∧ win0_3.index t (0 : Fin 1) = t.val
    ∧ win0_4.index t (0 : Fin 1) = t.val ∧ win0_5.index t (0 : Fin 1) = t.val :=
  (by decide +kernel : ∀ t : Fin grid0.N, _)

/-- What point t writes back to the first output array is block t of the sum of the first and third inputs. -/
theorem flushed_x (c : Dev nD) (t : Fin cfg0.N) :
    (dats m 0 c).flushed 4 t = ((cfg0.win 4).blk t).view.read (Elt F) (sumArr (V m c main_v17) (V m c main_v21)) := by
  show (cfg0.win 4).cut (grid0.coords t) ((dats m 0 c).after 4 t) = _
  rw [after0_4]
  unfold out0_4
  rw [View.canon_unit_zero offset_zero]
  simp only [View.ld_unit_zero (S := S8192) offset_zero]
  rw [stored_x]
  obtain ⟨e0, e1, e2, e3, e4, e5⟩ := block_index t
  funext j
  show FloatOps.addf (V m c main_v17 (((cfg0.win 0).blk t).view.emb j)) (V m c main_v21 (((cfg0.win 2).blk t).view.emb j))
    = FloatOps.addf (V m c main_v17 (((cfg0.win 4).blk t).view.emb j)) (V m c main_v21 (((cfg0.win 4).blk t).view.emb j))
  have h0 : ((cfg0.win 0).blk t).view.emb j = ((cfg0.win 4).blk t).view.emb j := by
    funext a; apply Fin.ext
    match a with
    | ⟨0, _⟩ => show win0_0.index t (0 : Fin 1) * 8192 + 1 * (j 0).val = win0_4.index t (0 : Fin 1) * 8192 + 1 * (j 0).val; omega
  have h2 : ((cfg0.win 2).blk t).view.emb j = ((cfg0.win 4).blk t).view.emb j := by
    funext a; apply Fin.ext
    match a with
    | ⟨0, _⟩ => show win0_2.index t (0 : Fin 1) * 8192 + 1 * (j 0).val = win0_4.index t (0 : Fin 1) * 8192 + 1 * (j 0).val; omega
  rw [h0, h2]

/-- What point t writes back to the second output array is block t of the sum of the second and fourth inputs. -/
theorem flushed_y (c : Dev nD) (t : Fin cfg0.N) :
    (dats m 0 c).flushed 5 t = ((cfg0.win 5).blk t).view.read (Elt F) (sumArr (V m c main_v19) (V m c main_v23)) := by
  show (cfg0.win 5).cut (grid0.coords t) ((dats m 0 c).after 5 t) = _
  rw [after0_5]
  unfold out0_5
  rw [View.canon_unit_zero offset_zero]
  simp only [View.ld_unit_zero (S := S8192) offset_zero]
  rw [stored_y]
  obtain ⟨e0, e1, e2, e3, e4, e5⟩ := block_index t
  funext j
  show FloatOps.addf (V m c main_v19 (((cfg0.win 1).blk t).view.emb j)) (V m c main_v23 (((cfg0.win 3).blk t).view.emb j))
    = FloatOps.addf (V m c main_v19 (((cfg0.win 5).blk t).view.emb j)) (V m c main_v23 (((cfg0.win 5).blk t).view.emb j))
  have h1 : ((cfg0.win 1).blk t).view.emb j = ((cfg0.win 5).blk t).view.emb j := by
    funext a; apply Fin.ext
    match a with
    | ⟨0, _⟩ => show win0_1.index t (0 : Fin 1) * 8192 + 1 * (j 0).val = win0_5.index t (0 : Fin 1) * 8192 + 1 * (j 0).val; omega
  have h3 : ((cfg0.win 3).blk t).view.emb j = ((cfg0.win 5).blk t).view.emb j := by
    funext a; apply Fin.ext
    match a with
    | ⟨0, _⟩ => show win0_3.index t (0 : Fin 1) * 8192 + 1 * (j 0).val = win0_5.index t (0 : Fin 1) * 8192 + 1 * (j 0).val; omega
  rw [h1, h3]

/-- An entry lies in point t's block of the first output iff it is one of the 8192 entries from 8192·(block index). -/
theorem mem_block_x (t : Fin cfg0.N) (i : S8003584.Idx) :
    i ∈ ((cfg0.win 4).blk t).view.set ↔ ∀ a : Fin 1, win0_4.index t a * S8192.size a ≤ (i a).val ∧ (i a).val < win0_4.index t a * S8192.size a + S8192.size a := by
  show i ∈ ((View.whole main_v24_0).slice (win0_4.rect t)).set ↔ _
  rw [View.set_slice_whole, Rect.mem_set_unit]
  exact Iff.rfl
/-- The same for the second output. -/
theorem mem_block_y (t : Fin cfg0.N) (i : S8003584.Idx) :
    i ∈ ((cfg0.win 5).blk t).view.set ↔ ∀ a : Fin 1, win0_5.index t a * S8192.size a ≤ (i a).val ∧ (i a).val < win0_5.index t a * S8192.size a + S8192.size a := by
  show i ∈ ((View.whole main_v24_1).slice (win0_5.rect t)).set ↔ _
  rw [View.set_slice_whole, Rect.mem_set_unit]
  exact Iff.rfl

/-- The point whose block holds entry k: k / 8192, below 977 because k < 977 · 8192. -/
def pointOf (i : S8003584.Idx) : Fin cfg0.N :=
  ⟨(i 0).val / 8192, by have hi : (i 0).val < 8003584 := (i 0).isLt; show (i 0).val / 8192 < grid0.N; rw [N_0]; omega⟩
theorem pointOf_val (i : S8003584.Idx) : (pointOf i).val = (i 0).val / 8192 := rfl

/-- Every entry of the first output array is written back by the point k / 8192. -/
theorem cover_x (i : S8003584.Idx) : ∃ t : Fin cfg0.N, (cfg0.win 4).flush t = true ∧ i ∈ ((cfg0.win 4).blk t).view.set := by
  refine ⟨pointOf i, flush0_4 _, ?_⟩
  rw [mem_block_x]
  obtain ⟨e0, e1, e2, e3, e4, e5⟩ := block_index (pointOf i)
  have hv := pointOf_val i
  intro a
  match a with
  | ⟨0, _⟩ =>
    show win0_4.index (pointOf i) (0 : Fin 1) * 8192 ≤ (i 0).val ∧ (i 0).val < win0_4.index (pointOf i) (0 : Fin 1) * 8192 + 8192
    omega
/-- Every entry of the second output array is written back by the point k / 8192. -/
theorem cover_y (i : S8003584.Idx) : ∃ t : Fin cfg0.N, (cfg0.win 5).flush t = true ∧ i ∈ ((cfg0.win 5).blk t).view.set := by
  refine ⟨pointOf i, flush0_5 _, ?_⟩
  rw [mem_block_y]
  obtain ⟨e0, e1, e2, e3, e4, e5⟩ := block_index (pointOf i)
  have hv := pointOf_val i
  intro a
  match a with
  | ⟨0, _⟩ =>
    show win0_5.index (pointOf i) (0 : Fin 1) * 8192 ≤ (i 0).val ∧ (i 0).val < win0_5.index (pointOf i) (0 : Fin 1) * 8192 + 8192
    omega

/-- After the run the first output array is the sum of the first and third input arrays, -/
theorem final_x (c : Dev nD) : (dats m 0 c).arrAt 4 cfg0.N = sumArr (V m c main_v17) (V m c main_v21) :=
  (dats m 0 c).arrAt_eq_of_cover 4 _ (fun t _ => flushed_x m c t) cover_x
/-- and the second output array the sum of the second and fourth. -/
theorem final_y (c : Dev nD) : (dats m 0 c).arrAt 5 cfg0.N = sumArr (V m c main_v19) (V m c main_v23) :=
  (dats m 0 c).arrAt_eq_of_cover 5 _ (fun t _ => flushed_y m c t) cover_y

end Cert.KernelIdeal.Blocks

end
-- ==== Proof.PadSlice.lean ====
/-
  The arithmetic of padding: a vector of 8000000 pins is extended by 3584 trailing entries to a whole number of
  blocks of 8192 (977 · 8192 = 8003584), the block-wise work is done on the extended vectors, and the first
  8000000 entries are cut back out.  Cutting the first 8000000 entries out of "g followed by anything" gives g
  back, and a cut of an elementwise sum is the elementwise sum of the cuts; so cutting the sum of two extended
  vectors gives the sum of the two vectors that were extended, whatever the extension held.  Nothing here
  depends on what a float is: the statements hold at every reading of the float operations.
-/
import Idealize.ShloMosaic.PureOps.Ideal
import Idealize.ShloMosaic.Lib.ValueIdx
import Idealize.ShloMosaic.Lib.Pipeline.Value
import Idealize.ShloMosaic.Lib.LayoutPointwise

noncomputable section

namespace Cert.PinPos

open Idealize.ShloMosaic Idealize.ShloMosaic.ValueIdx

/-- One entry per pin. -/
abbrev Pins : Shape := ⟨1, ![8000000]⟩
/-- The entries appended to reach a whole number of blocks. -/
abbrev Tail : Shape := ⟨1, ![3584]⟩
/-- The pins followed by the appended entries. -/
abbrev Padded : Shape := ⟨1, ![8003584]⟩
/-- The x positions of all pins followed by their y positions. -/
abbrev Both : Shape := ⟨1, ![16000000]⟩

/-- The first 8000000 entries of "g followed by z" are g. -/
theorem slice_pad {α : Type} (g : Pins.Idx → α) (z : Tail.Idx → α)
    (hc : Shape.Concatenates [Pins, Tail] Padded 0) (hs : Padded.Slices ![0] Pins) :
    extractStridedSlice Pins ![0] (concatenate Padded 0 [⟨Pins, g⟩, ⟨Tail, z⟩] hc) hs = g := by
  funext j
  obtain ⟨p, rfl⟩ : ∃ p : Fin 8000000, j = ix1 p := ⟨j 0, eq_ix1 j⟩
  have hp : p.val < 8003584 := by have := p.isLt; omega
  refine (extractStridedSlice_apply ![0] _ hs (ix1 p) (ix1 (⟨p.val, hp⟩ : Fin 8003584)) ?_).trans ?_
  · intro a
    match a with
    | ⟨0, _⟩ => exact (Nat.zero_add _).symm
  · exact concatenate_pair_apply_left 0 g z hc (ix1 (⟨p.val, hp⟩ : Fin 8003584)) rfl (ix1 p)
      (fun b => by match b with | ⟨0, _⟩ => rfl)

variable {F : FTy → Type} [FloatOps F]

/-- The first 8000000 entries of the sum of two extended vectors are the sum of the two vectors, whatever the
    extensions hold: position k < 8000000 of "g, z" is g k and of "o, z'" is o k. -/
theorem slice_add_pad (g o : FVec F Pins .f32) (z z' : FVec F Tail .f32)
    (hc : Shape.Concatenates [Pins, Tail] Padded 0) (hs : Padded.Slices ![0] Pins) :
    extractStridedSlice Pins ![0]
        (addf (concatenate Padded 0 [⟨Pins, g⟩, ⟨Tail, z⟩] hc : FVec F Padded .f32)
          (concatenate Padded 0 [⟨Pins, o⟩, ⟨Tail, z'⟩] hc)) hs
      = addf g o := by
  rw [extractStridedSlice_addf, slice_pad, slice_pad]

/-- Pin positions: for every pin the x coordinate of its node plus the pin's x offset, then for every pin the y
    coordinate of its node plus its y offset — `gx`, `gy` the node coordinates already looked up per pin. -/
def pinPositions (gx gy ox oy : FVec F Pins .f32) (h : Shape.Concatenates [Pins, Pins] Both 0) : FVec F Both .f32 :=
  concatenate Both 0 [⟨Pins, addf gx ox⟩, ⟨Pins, addf gy oy⟩] h

/-- Both halves at once: cut the two padded sums back to 8000000 entries each and put them one after the other;
    the result is the pin positions of the vectors that were padded. -/
theorem pinPositions_of_padded (gx gy ox oy : FVec F Pins .f32) (z1 z2 z3 z4 : FVec F Tail .f32)
    (hc : Shape.Concatenates [Pins, Tail] Padded 0) (hs : Padded.Slices ![0] Pins)
    (h : Shape.Concatenates [Pins, Pins] Both 0) :
    (concatenate Both 0
      [⟨Pins, extractStridedSlice Pins ![0]
          (addf (concatenate Padded 0 [⟨Pins, gx⟩, ⟨Tail, z1⟩] hc : FVec F Padded .f32)
            (concatenate Padded 0 [⟨Pins, ox⟩, ⟨Tail, z3⟩] hc)) hs⟩,
       ⟨Pins, extractStridedSlice Pins ![0]
          (addf (concatenate Padded 0 [⟨Pins, gy⟩, ⟨Tail, z2⟩] hc : FVec F Padded .f32)
            (concatenate Padded 0 [⟨Pins, oy⟩, ⟨Tail, z4⟩] hc)) hs⟩] h : FVec F Both .f32)
      = pinPositions gx gy ox oy h := by
  unfold pinPositions
  rw [slice_add_pad, slice_add_pad]

end Cert.PinPos

end
-- ==== Proof.KernelValue.lean ====
/-
  The kernel's program as a whole.  Before the region the host looks up, for every pin, the x coordinate of its
  node (position pin2node[k] of the position vector, a negative index counted from the end) and the y coordinate
  (position 2000000 + pin2node[k]), pads the two looked-up vectors and the two offset vectors with 3584 zeros to
  977 blocks of 8192, and hands the four padded vectors to the region.  The region adds them block by block.
  After the region the host cuts the first 8000000 entries out of each of the two sums and puts the two cuts one
  after the other.  Since entry k < 8000000 of a padded vector is entry k of the vector that was padded, the result
  is, for every pin, node x + offset x, followed by, for every pin, node y + offset y.  The zeros of the padding
  never reach the result, and no law of arithmetic is used: this holds at every reading of the float operations.
-/
import proofs.«153503_j70214125355241_2_alg».proof.Proof.KernelBlocks
import proofs.«153503_j70214125355241_2_alg».proof.Proof.PadSlice
import Idealize.ShloMosaic.Lib.StableHlo.Run

set_option maxRecDepth 16384

noncomputable section

namespace Cert.KernelIdeal.PinValue

open Idealize.ShloMosaic Idealize.ShloMosaic.TcCoe Idealize.SL.Sem
open Cert.KernelIdeal Cert.KernelIdeal.Gen Cert.KernelIdeal.Blocks
open Idealize.ShloMosaic.Pipeline (Dat)

variable {F : FTy → Type} [FloatOps F]
variable (m : (ℓ : Loc nD τ sig) → Buf (Elt F) ℓ)

/-- For every pin, the x coordinate of its node: the position vector at the pin's node index, an index below zero
    counted from the vector's end (the vector has 4000000 entries). -/
def nodeX (c : Dev nD) : FVec F S8000000 .f32 :=
  Host.gather gather_S4000000_S8000000x1_S8000000_n_0_n_n_0_1_1 (m ((c.tc : Thread nD τ).loc main_arg0))
    (broadcastInDim S8000000x1 ![0] bcast_S8000000_S8000000x1_0
      (select
        (cmpi .slt (m ((c.tc : Thread nD τ).loc main_arg3)) (broadcastInDim S8000000 ![] bcast_S_S8000000 (constantI S_ 32 0#32)))
        (addi (m ((c.tc : Thread nD τ).loc main_arg3)) (broadcastInDim S8000000 ![] bcast_S_S8000000 (constantI S_ 32 4000000#32)))
        (m ((c.tc : Thread nD τ).loc main_arg3))))

/-- For every pin, the y coordinate of its node: the position vector at 2000000 + the pin's node index, again an
    index below zero counted from the end. -/
def nodeY (c : Dev nD) : FVec F S8000000 .f32 :=
  Host.gather gather_S4000000_S8000000x1_S8000000_n_0_n_n_0_1_1 (m ((c.tc : Thread nD τ).loc main_arg0))
    (broadcastInDim S8000000x1 ![0] bcast_S8000000_S8000000x1_0
      (select
        (cmpi .slt (addi (broadcastInDim S8000000 ![] bcast_S_S8000000 (constantI S_ 32 2000000#32)) (m ((c.tc : Thread nD τ).loc main_arg3)))
          (broadcastInDim S8000000 ![] bcast_S_S8000000 (constantI S_ 32 0#32)))
        (addi (addi (broadcastInDim S8000000 ![] bcast_S_S8000000 (constantI S_ 32 2000000#32)) (m ((c.tc : Thread nD τ).loc main_arg3)))
          (broadcastInDim S8000000 ![] bcast_S_S8000000 (constantI S_ 32 4000000#32)))
        (addi (broadcastInDim S8000000 ![] bcast_S_S8000000 (constantI S_ 32 2000000#32)) (m ((c.tc : Thread nD τ).loc main_arg3)))))

/-- The padding: 3584 zeros. -/
def zeros : FVec F S3584 .f32 := broadcastInDim S3584 ![] bcast_S_S3584 (constant S_ .f32 0x00000000#32)

/-! ## The four arrays the region is handed -/

set_option maxHeartbeats 2000000 in
theorem entry_gx (c : Dev nD) : (V m c main_v17 : S8003584.Idx → Elt F .f32)
    = concatenate S8003584 0 [⟨S8000000, nodeX m c⟩, ⟨S3584, zeros⟩] concatenates_S8000000_S3584_S8003584_d0 := by
  show StableHlo.after hostOps0 (fun b => m (c, b)) (Proc.devRef .tc main_v17) = _
  after_results
  rfl

set_option maxHeartbeats 2000000 in
theorem entry_gy (c : Dev nD) : (V m c main_v19 : S8003584.Idx → Elt F .f32)
    = concatenate S8003584 0 [⟨S8000000, nodeY m c⟩, ⟨S3584, zeros⟩] concatenates_S8000000_S3584_S8003584_d0 := by
  show StableHlo.after hostOps0 (fun b => m (c, b)) (Proc.devRef .tc main_v19) = _
  after_results
  rfl

set_option maxHeartbeats 2000000 in
theorem entry_ox (c : Dev nD) : (V m c main_v21 : S8003584.Idx → Elt F .f32)
    = concatenate S8003584 0 [⟨S8000000, m ((c.tc : Thread nD τ).loc main_arg1)⟩, ⟨S3584, zeros⟩] concatenates_S8000000_S3584_S8003584_d0 := by
  show StableHlo.after hostOps0 (fun b => m (c, b)) (Proc.devRef .tc main_v21) = _
  after_results
  rfl

set_option maxHeartbeats 2000000 in
theorem entry_oy (c : Dev nD) : (V m c main_v23 : S8003584.Idx → Elt F .f32)
    = concatenate S8003584 0 [⟨S8000000, m ((c.tc : Thread nD τ).loc main_arg2)⟩, ⟨S3584, zeros⟩] concatenates_S8000000_S3584_S8003584_d0 := by
  show StableHlo.after hostOps0 (fun b => m (c, b)) (Proc.devRef .tc main_v23) = _
  after_results
  rfl

/-! ## The lines after the region -/

/-- The program's result from the two arrays the region leaves: the first 8000000 entries of each, one cut after
    the other. -/
theorem tail_eq (c : Dev nD) :
    Pipeline.afterTail₀ cfgs (dats m) 0 (V0 m) [hostOps1] c main_v27
      = concatenate S16000000 0
          [⟨S8000000, extractStridedSlice S8000000 ![0] ((dats m 0 c).arrAt 4 cfg0.N) slices_S8003584_S8000000_0⟩,
           ⟨S8000000, extractStridedSlice S8000000 ![0] ((dats m 0 c).arrAt 5 cfg0.N) slices_S8003584_S8000000_0⟩]
          concatenates_S8000000_S8000000_S16000000_d0 := by
  have hx : Pipeline.withArrays (cfgs 0).spec c (V0 m c) (fun w => (dats m 0 c).arrAt w (cfgs 0).N) (Proc.devRef .tc main_v24_0)
      = (dats m 0 c).arrAt 4 cfg0.N := Pipeline.withArrays_arr spec0 launch0.win.arr_inj c _ _ 4
  have hy : Pipeline.withArrays (cfgs 0).spec c (V0 m c) (fun w => (dats m 0 c).arrAt w (cfgs 0).N) (Proc.devRef .tc main_v24_1)
      = (dats m 0 c).arrAt 5 cfg0.N := Pipeline.withArrays_arr spec0 launch0.win.arr_inj c _ _ 5
  unfold Pipeline.afterTail₀
  show StableHlo.after hostOps1 _ (Proc.devRef .tc main_v27) = _
  after_results
  rw [hx, hy]

/-- THE RESULT: node x + offset x for every pin, then node y + offset y for every pin. -/
theorem result_eq (c : Dev nD) :
    Pipeline.afterTail₀ cfgs (dats m) 0 (V0 m) [hostOps1] c main_v27
      = Cert.PinPos.pinPositions (nodeX m c) (nodeY m c) (m ((c.tc : Thread nD τ).loc main_arg1)) (m ((c.tc : Thread nD τ).loc main_arg2))
          concatenates_S8000000_S8000000_S16000000_d0 := by
  rw [tail_eq, final_x, final_y, entry_gx, entry_gy, entry_ox, entry_oy]
  exact Cert.PinPos.pinPositions_of_padded (nodeX m c) (nodeY m c) _ _ zeros zeros zeros zeros
    concatenates_S8000000_S3584_S8003584_d0 slices_S8003584_S8000000_0 concatenates_S8000000_S8000000_S16000000_d0

/-! ## The run -/

/-- Every weakly fair execution of the kernel's program terminates, with the result at the pin positions and
    every argument array as it was. -/
theorem run (ρ : Dev nD → PrngReg) :
    θ_run defs (onTc (τ := τ) (main (F := F))) ⟨m, fun _ => 0, ρ⟩ (fun r => ∀ c : Dev nD,
      r.2.mem ((c.tc : Thread nD τ).loc main_v27)
        = Cert.PinPos.pinPositions (nodeX m c) (nodeY m c) (m ((c.tc : Thread nD τ).loc main_arg1)) (m ((c.tc : Thread nD τ).loc main_arg2))
            concatenates_S8000000_S8000000_S16000000_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v27 (Pipeline.mem_restRefs_of main_v27 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.PinValue

end
-- ==== Proof.ReferenceValue.lean ====
/-
  The reference program as a whole: for every pin, look up the x coordinate of its node (the position vector at
  the pin's node index, an index below zero counted from the end) and add the pin's x offset; look up the y
  coordinate (at 2000000 + the node index) and add the y offset; put the x results before the y results.  That is
  the pin-position function of the looked-up vectors and the offsets, read off the program's operations.
-/
import proofs.«153503_j70214125355241_2_alg».proof.Proof.Gen.ReferenceIdeal.Run
import proofs.«153503_j70214125355241_2_alg».proof.Proof.PadSlice

set_option maxRecDepth 16384

noncomputable section

namespace Cert.ReferenceIdeal.PinValue

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ)

/-- For every pin, the x coordinate of its node: the position vector at the pin's node index, an index below zero
    counted from the vector's end (the vector has 4000000 entries). -/
def nodeX (c : Dev nD) : FVec F S8000000 .f32 :=
  Host.gather gather_S4000000_S8000000x1_S8000000_n_0_n_n_0_1_1 (m ((c.tc : Thread nD τ).loc main_arg0))
    (broadcastInDim S8000000x1 ![0] bcast_S8000000_S8000000x1_0
      (select
        (cmpi .slt (m ((c.tc : Thread nD τ).loc main_arg3)) (broadcastInDim S8000000 ![] bcast_S_S8000000 (constantI S_ 32 0#32)))
        (addi (m ((c.tc : Thread nD τ).loc main_arg3)) (broadcastInDim S8000000 ![] bcast_S_S8000000 (constantI S_ 32 4000000#32)))
        (m ((c.tc : Thread nD τ).loc main_arg3))))

/-- For every pin, the y coordinate of its node: the position vector at 2000000 + the pin's node index, again an
    index below zero counted from the end. -/
def nodeY (c : Dev nD) : FVec F S8000000 .f32 :=
  Host.gather gather_S4000000_S8000000x1_S8000000_n_0_n_n_0_1_1 (m ((c.tc : Thread nD τ).loc main_arg0))
    (broadcastInDim S8000000x1 ![0] bcast_S8000000_S8000000x1_0
      (select
        (cmpi .slt (addi (broadcastInDim S8000000 ![] bcast_S_S8000000 (constantI S_ 32 2000000#32)) (m ((c.tc : Thread nD τ).loc main_arg3)))
          (broadcastInDim S8000000 ![] bcast_S_S8000000 (constantI S_ 32 0#32)))
        (addi (addi (broadcastInDim S8000000 ![] bcast_S_S8000000 (constantI S_ 32 2000000#32)) (m ((c.tc : Thread nD τ).loc main_arg3)))
          (broadcastInDim S8000000 ![] bcast_S_S8000000 (constantI S_ 32 4000000#32)))
        (addi (broadcastInDim S8000000 ![] bcast_S_S8000000 (constantI S_ 32 2000000#32)) (m ((c.tc : Thread nD τ).loc main_arg3)))))

/-- Every weakly fair execution of the reference terminates, with the result at the pin positions and every
    argument array as it was. -/
theorem run (ρ : Dev nD → PrngReg) :
    θ_run defs (onTc (τ := τ) (main (F := F))) ⟨m, fun _ => 0, ρ⟩ (fun r => ∀ c : Dev nD,
      r.2.mem ((c.tc : Thread nD τ).loc main_v18)
        = Cert.PinPos.pinPositions (nodeX m c) (nodeY m c) (m ((c.tc : Thread nD τ).loc main_arg1)) (m ((c.tc : Thread nD τ).loc main_arg2))
            concatenates_S8000000_S8000000_S16000000_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (by unfold Cert.PinPos.pinPositions nodeX nodeY; rfl), (h c).2⟩)
    (Cert.ReferenceIdeal.Value.run (F := F) m ρ)

end Cert.ReferenceIdeal.PinValue

end
-- ==== Proof.lean ====
/-
  Pin positions: for every pin k of 8000000, the x coordinate of the pin's node plus the pin's x offset, and the y
  coordinate of the node plus the y offset; the 8000000 x results come first, then the 8000000 y results.  The node
  coordinates are looked up in one vector of 4000000 positions (x of node n at n, y at 2000000 + n; an index below
  zero is counted from the end).

  The kernel's program does the look-up on the host, pads the two looked-up vectors and the two offset vectors with
  3584 zeros to 977 blocks of 8192 entries, adds them block by block in a grid of 977 points, cuts the first 8000000
  entries out of each sum and joins the two cuts.  The reference adds the looked-up vectors and the offsets directly
  and joins the two sums.  Entry k < 8000000 of a padded vector is entry k of the vector that was padded, each block
  of a sum is the sum of the blocks, and the blocks tile the padded vectors exactly; so both programs compute the
  same function of the arguments, the padding never reaches the result, and no law of arithmetic on the extended
  reals is needed — in particular the finiteness of the inputs is not used.  The two programs spell the same
  look-up with the same operations, so the looked-up vectors agree as soon as the arguments do.

  The idealization rewrote nothing, so there is nothing to preserve; the three frames are the generated runs.
-/
import proofs.«153503_j70214125355241_2_alg».proof.Defs
import proofs.«153503_j70214125355241_2_alg».proof.Proof.Gen.Kernel
import proofs.«153503_j70214125355241_2_alg».proof.Proof.Gen.Kernel.Skeleton
import proofs.«153503_j70214125355241_2_alg».proof.Proof.Gen.Kernel.Launch
import proofs.«153503_j70214125355241_2_alg».proof.Proof.Gen.Kernel.Points
import proofs.«153503_j70214125355241_2_alg».proof.Proof.Gen.Kernel.Frame
import proofs.«153503_j70214125355241_2_alg».proof.Proof.Gen.KernelIdeal
import proofs.«153503_j70214125355241_2_alg».proof.Proof.Gen.KernelIdeal.Skeleton
import proofs.«153503_j70214125355241_2_alg».proof.Proof.Gen.KernelIdeal.Launch
import proofs.«153503_j70214125355241_2_alg».proof.Proof.Gen.KernelIdeal.Points
import proofs.«153503_j70214125355241_2_alg».proof.Proof.Gen.KernelIdeal.Frame
import proofs.«153503_j70214125355241_2_alg».proof.Proof.Gen.ReferenceIdeal
import proofs.«153503_j70214125355241_2_alg».proof.Proof.Gen.ReferenceIdeal.Run
import proofs.«153503_j70214125355241_2_alg».proof.Proof.Gen.Pre_finite_inputs
import proofs.«153503_j70214125355241_2_alg».proof.Proof.KernelValue
import proofs.«153503_j70214125355241_2_alg».proof.Proof.ReferenceValue
import Idealize.ShloMosaic.Adequacy
import Idealize.ShloMosaic.Init

noncomputable section

namespace Cert.Proof

open Idealize.ShloMosaic Idealize.SL.Sem

variable {F : FTy → Type} [FloatOps F]

/-- The two programs look the x coordinates up with the same operations: from arguments that agree they get the
    same vector. -/
theorem nodeX_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.PinValue.nodeX m' c = Cert.KernelIdeal.PinValue.nodeX m c := by
  unfold Cert.ReferenceIdeal.PinValue.nodeX Cert.KernelIdeal.PinValue.nodeX
  rw [h0, h3]
  rfl

/-- The same for the y coordinates. -/
theorem nodeY_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.PinValue.nodeY m' c = Cert.KernelIdeal.PinValue.nodeY m c := by
  unfold Cert.ReferenceIdeal.PinValue.nodeY Cert.KernelIdeal.PinValue.nodeY
  rw [h0, h3]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs end at the pin positions of the same looked-up vectors and the same offsets. -/
theorem algebraic : Cert.algebraic_KernelIdeal_ReferenceIdeal := by
  intro m ρ m' ρ' _ hagree
  refine ⟨_, Cert.KernelIdeal.PinValue.run (F := Ideal) m ρ, ?_⟩
  refine (θ_run Cert.ReferenceIdeal.defs _ _).mono (fun _ h c => ⟨(h c).1.trans ?_, (h c).2⟩)
    (Cert.ReferenceIdeal.PinValue.run (F := Ideal) m' ρ')
  rw [nodeX_agree m m' c (hagree c).1 (hagree c).2.2.2.1, nodeY_agree m m' c (hagree c).1 (hagree c).2.2.2.1,
    (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
